-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S64x256 : Shape := ⟨2, ![64, 256]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S65536x64 .f32) (main_arg1 : FVec F S64x256 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S65536x64 : Shape := ⟨2, ![65536, 64]⟩
abbrev S64x256 : Shape := ⟨2, ![64, 256]⟩
abbrev S_ : Shape := ⟨0, ![]⟩
abbrev S256 : Shape := ⟨1, ![256]⟩
abbrev S1x256 : Shape := ⟨2, ![1, 256]⟩
abbrev S65536x256 : Shape := ⟨2, ![65536, 256]⟩
abbrev S8192x64 : Shape := ⟨2, ![8192, 64]⟩
abbrev S8192x256 : Shape := ⟨2, ![8192, 256]⟩
abbrev S2048x64 : Shape := ⟨2, ![2048, 64]⟩
abbrev S2048 : Shape := ⟨1, ![2048]⟩
abbrev S2048x1 : Shape := ⟨2, ![2048, 1]⟩
abbrev S2048x256 : Shape := ⟨2, ![2048, 256]⟩

abbrev nBuf : Space → Nat
  | .hbm => 8
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S64x256, .f32⟩
  | .hbm, ⟨2, _⟩ => ⟨S64x256, .bf16⟩
  | .hbm, ⟨3, _⟩ => ⟨S64x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S65536x256, .f32⟩
  | .local _ .vmem, ⟨0, _⟩ => ⟨S8192x64, .f32⟩
  | .local _ .vmem, ⟨1, _⟩ => ⟨S8192x64, .f32⟩
  | .local _ .vmem, ⟨2, _⟩ => ⟨S64x256, .bf16⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2048_i32 : BitVec 32 := 2048#32
  let v4 : BitVec 32 := Scalar.muli c0_i32 c2048_i32
  v4
def k0_off1 (c0_i32 : BitVec 32) : Fin 2 → Nat :=
  let c2048_i32 : BitVec 32 := 2048#32
  let v4 : BitVec 32 := Scalar.muli c0_i32 c2048_i32
  let v5 : BitVec 32 := v4
  let v6 : Index := Scalar.indexCast v5
  let c0_3 : Index := 0#32
  ![v6.toNat, 0]
def k0_off2 (c0_i32 : BitVec 32) : Fin 2 → Nat :=
  let c2048_i32 : BitVec 32 := 2048#32
  let v4 : BitVec 32 := Scalar.muli c0_i32 c2048_i32
  let v5 : BitVec 32 := v4
  let v22 : Index := Scalar.indexCast v5
  let c0_7 : Index := 0#32
  ![v22.toNat, 0]
def k0_mult2 : BitVec 32 :=
  let c1_i32 : BitVec 32 := 1#32
  let c2048_i32_8 : BitVec 32 := 2048#32
  let v24 : BitVec 32 := Scalar.muli c1_i32 c2048_i32_8
  v24
def k0_mult3 : BitVec 32 :=
  let c2_i32 : BitVec 32 := 2#32
  let c2048_i32_15 : BitVec 32 := 2048#32
  let v44 : BitVec 32 := Scalar.muli c2_i32 c2048_i32_15
  v44
def k0_mult4 : BitVec 32 :=
  let c3_i32 : BitVec 32 := 3#32
  let c2048_i32_22 : BitVec 32 := 2048#32
  let v64 : BitVec 32 := Scalar.muli c3_i32 c2048_i32_22
  v64
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S64x256_S256_d0 : S64x256.ReducesTo [0] S256
  h_S_ : 0 < S_.numel
  bcast_S256_S1x256_1 : S256.BroadcastsInDim S1x256 (![1] : Fin 1 → Fin S1x256.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S2048x64 : 0 < S2048x64.numel
  reduces_S2048x64_S2048 : S2048x64.Reduces [1] S2048
  shapeCasts_S2048_S2048x1 : S2048.ShapeCasts S2048x1
  broadcasts_S2048x1_S2048x256 : S2048x1.Broadcasts S2048x256
  broadcasts_S1x256_S2048x256 : S1x256.Broadcasts S2048x256
  h_S2048x256 : 0 < S2048x256.numel
  dot_S2048x64_S64x256_S2048x256_1_0_0_1_n_n_wf : DotDims.WF S2048x64 S64x256 S2048x256 [1] [0] [0] [1] [] []
  hrank0 : 0 < grid0.rank
  k0_mult1_dvd : 2048 ∣ k0_mult1.toNat
  k0_off1_inb : ∀ (r : Fin 4), ∀ a, (k0_off1 (BitVec.ofNat 32 r.val)) a + S2048x64.size a ≤ S8192x64.size a
  k0_off2_inb : ∀ (r : Fin 4), ∀ a, (k0_off2 (BitVec.ofNat 32 r.val)) a + S2048x256.size a ≤ S8192x256.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S65536x256.size a
  hwx0_3 : ∀ i : grid0.Coords, EltTy.bits .f32 = 32 ∨ (Rect.block (s := S65536x256) S8192x256.size (cc0_transform_3 i) (hinb0_3 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S64x256 : Shape := ⟨2, ![64, 256]⟩
abbrev S_ : Shape := ⟨0, ![]⟩
abbrev S65536 : Shape := ⟨1, ![65536]⟩
abbrev S65536x1 : Shape := ⟨2, ![65536, 1]⟩
abbrev S256 : Shape := ⟨1, ![256]⟩
abbrev S1x256 : Shape := ⟨2, ![1, 256]⟩
abbrev S65536x256 : Shape := ⟨2, ![65536, 256]⟩

abbrev nBuf : Space → Nat
  | .hbm => 22
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S64x256, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S64x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S_, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S65536x256, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S64x256_S256_d0 : S64x256.ReducesTo [0] S256
  bcast_S256_S1x256_1 : S256.BroadcastsInDim S1x256 (![1] : Fin 1 → Fin S1x256.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  dot_S65536x64_S64x256_S65536x256_1_0_0_1_n_n_wf : DotDims.WF S65536x64 S64x256 S65536x256 [1] [0] [0] [1] [] []

variable [Facts₀]

def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf

class Facts : Prop extends Facts₀ where

variable [Facts]
-- ==== Proof.RbfSpec.lean ====
/-
  The radial-basis-function array as ONE function of the two argument arrays, index by index, over the extended reals.

  For x of 65536 rows and 64 columns and mu of 64 rows and 256 columns, entry (b, u) is

      exp( -1/2 * ( ( sum_d x[b,d]^2  -  2 * sum_d x[b,d] * mu[d,u] )  +  sum_d mu[d,u]^2 ) ),

  the squared distance between row b of x and column u of mu, expanded, never simplified: both programs compute
  exactly this tree of operations, so no law of the extended reals is needed to join them, and the two scalar
  factors stay the binary words the programs hold (-1/2 and 2).
-/
import Idealize.ShloMosaic.PureOps.Ideal
import Idealize.ShloMosaic.Lib.ValueIdx

noncomputable section

open scoped BigOperators

namespace Cert.Rbf

open Idealize.ShloMosaic Idealize.ShloMosaic.ValueIdx

/-- One entry from the row of x, the column of mu and the column's sum of squares:
    `exp(-1/2 * ((|row|^2 - 2 * row . col) + c))`. -/
def entry {K : ℕ} (row col : Fin K → EReal) (c : EReal) : EReal :=
  Ideal.exp (Ideal.ofBits .f32 0xBF000000#32 *
    (((∑ k, row k * row k) - Ideal.ofBits .f32 0x40000000#32 * ∑ k, row k * col k) + c))

/-- The sum of the squares down column `u` of mu. -/
def colSq (mu : (⟨2, ![64, 256]⟩ : Shape).Idx → EReal) (u : Fin 256) : EReal :=
  ∑ k : Fin 64, mu (ix2 k u) * mu (ix2 k u)

/-- Entry (b, u) of the result. -/
def rbfAt (x : (⟨2, ![65536, 64]⟩ : Shape).Idx → EReal) (mu : (⟨2, ![64, 256]⟩ : Shape).Idx → EReal)
    (b : Fin 65536) (u : Fin 256) : EReal :=
  entry (fun k : Fin 64 => x (ix2 b k)) (fun k : Fin 64 => mu (ix2 k u)) (colSq mu u)

/-- The whole result array. -/
def G (x : (⟨2, ![65536, 64]⟩ : Shape).Idx → EReal) (mu : (⟨2, ![64, 256]⟩ : Shape).Idx → EReal) :
    (⟨2, ![65536, 256]⟩ : Shape).Idx → EReal :=
  fun i => rbfAt x mu (i 0) (i 1)

theorem G_ix2 (x : (⟨2, ![65536, 64]⟩ : Shape).Idx → EReal) (mu : (⟨2, ![64, 256]⟩ : Shape).Idx → EReal)
    (b : Fin 65536) (u : Fin 256) : G x mu (ix2 b u) = rbfAt x mu b u := rfl

end Cert.Rbf

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.RbfSlice.lean ====
/-
  One 2048-row slice of the kernel's body, read at an index.

  The body cuts its 8192-row block of x into four slices of 2048 rows and runs the same operations on each:
  the row sums of squares (a lane sum, kept as a column and repeated across the 256 columns), the product of the
  slice with mu's block on the matrix unit (into a zero accumulator, the two operands first rounded to a shorter format,
  which changes nothing over the extended reals), twice that product subtracted, mu's column sums of squares (one row,
  repeated down the 2048 rows) added, the whole multiplied by -1/2 and exponentiated. So entry (p, q) of what a slice
  stores depends on row p of the slice, column q of mu's block and entry q of the row of column sums only.
-/
import proofs.«141782_j75299366633836_2_alg».proof.Proof.Gen.KernelIdeal.Skeleton
import proofs.«141782_j75299366633836_2_alg».proof.Proof.RbfSpec
import proofs.«141782_j75299366633836_2_alg».proof.Proof.LibColumnBroadcast
import proofs.«141782_j75299366633836_2_alg».proof.Proof.LibKeepdimsColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Slice

open Cert.KernelIdeal Cert.KernelIdeal.Gen Idealize.ShloMosaic Idealize.ShloMosaic.ValueIdx Cert.Rbf

/-- The lane sum of a slice's squares, kept as a column and repeated across the columns, at (p, q): the sum over row p. -/
theorem rowsq_apply (xs : FVec Ideal S2048x64 .f32) (p : Fin 2048) (q : Fin 256) :
    broadcastTo S2048x256 (shapeCast S2048x1
        (multiReduction .add [1] S2048 (mulf xs xs) 0x00000000#32 reduces_S2048x64_S2048 (.inl rfl) rfl)
        shapeCasts_S2048_S2048x1) broadcasts_S2048x1_S2048x256 (ix2 p q)
      = ∑ k : Fin 64, xs (ix2 p k) * xs (ix2 p k) := by
  refine (broadcastTo_a1_ab_apply _ broadcasts_S2048x1_S2048x256 p q).trans ?_
  refine (Cert.LibKeepdims.shapeCast_a_a1_apply _ shapeCasts_S2048_S2048x1 p (0 : Fin 1)).trans ?_
  refine (Ideal.multiReduction_add_single (mulf xs xs) 0x00000000#32 reduces_S2048x64_S2048 (.inl rfl) rfl (ix1 p)).trans ?_
  refine Finset.sum_congr rfl fun k _ => ?_
  have e : reduces_S2048x64_S2048.lift (ix1 p) k = ix2 p k :=
    funext fun a => Fin.ext (by match a with | ⟨0, _⟩ => rfl | ⟨1, _⟩ => rfl)
  rw [e]
  rfl

/-- The matrix product's operand indices at output (p, q) and contraction coordinate k, coordinate by coordinate. -/
theorem lhs_coord0 (i : S2048x256.Idx) (κ : dot_S2048x64_S64x256_S2048x256_1_0_0_1_n_n.contr.Idx) :
    (dot_S2048x64_S64x256_S2048x256_1_0_0_1_n_n.lhsIdx i κ 0).val = (i 0).val := by
  unfold DotDims.lhsIdx
  rw [dif_neg (show ¬(0 : Fin S2048x64.rank) ∈ dot_S2048x64_S64x256_S2048x256_1_0_0_1_n_n.lhsBatch by decide),
    dif_pos (show (0 : Fin S2048x64.rank) ∈ dot_S2048x64_S64x256_S2048x256_1_0_0_1_n_n.lhsNonContracting by decide)]
  rfl
theorem lhs_coord1 (i : S2048x256.Idx) (κ : dot_S2048x64_S64x256_S2048x256_1_0_0_1_n_n.contr.Idx) :
    (dot_S2048x64_S64x256_S2048x256_1_0_0_1_n_n.lhsIdx i κ 1).val = (κ ⟨0, by decide⟩).val :=
  dot_S2048x64_S64x256_S2048x256_1_0_0_1_n_n.lhsIdx_val_of_single rfl i κ
theorem rhs_coord0 (i : S2048x256.Idx) (κ : dot_S2048x64_S64x256_S2048x256_1_0_0_1_n_n.contr.Idx) :
    (dot_S2048x64_S64x256_S2048x256_1_0_0_1_n_n.rhsIdx i κ 0).val = (κ ⟨0, by decide⟩).val :=
  dot_S2048x64_S64x256_S2048x256_1_0_0_1_n_n.rhsIdx_val_of_single rfl i κ
theorem rhs_coord1 (i : S2048x256.Idx) (κ : dot_S2048x64_S64x256_S2048x256_1_0_0_1_n_n.contr.Idx) :
    (dot_S2048x64_S64x256_S2048x256_1_0_0_1_n_n.rhsIdx i κ 1).val = (i 1).val := by
  unfold DotDims.rhsIdx
  rw [dif_neg (show ¬(1 : Fin S64x256.rank) ∈ dot_S2048x64_S64x256_S2048x256_1_0_0_1_n_n.rhsBatch by decide),
    dif_pos (show (1 : Fin S64x256.rank) ∈ dot_S2048x64_S64x256_S2048x256_1_0_0_1_n_n.rhsNonContracting by decide)]
  rfl

/-- The slice times mu's block on the matrix unit, from zero, at (p, q): row p of the slice against column q of the block. -/
theorem cross_apply (v0 : FVec Ideal S64x256 .bf16) (xs : FVec Ideal S2048x64 .f32) (p : Fin 2048) (q : Fin 256) :
    matmul dot_S2048x64_S64x256_S2048x256_1_0_0_1_n_n none (truncf .bf16 xs bitsLt_bf16_f32)
        (shapeCast S64x256 v0 shapeCasts_S64x256_S64x256) (constant S2048x256 .f32 0x00000000#32) (ix2 p q)
      = ∑ k : Fin 64, xs (ix2 p k) * v0 (ix2 k q) := by
  rw [shapeCast_self]
  refine (Ideal.matmul_constant_zero_apply dot_S2048x64_S64x256_S2048x256_1_0_0_1_n_n none _ _ (ix2 p q)).trans ?_
  rw [← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 p q)
      ((contrEquiv1 dot_S2048x64_S64x256_S2048x256_1_0_0_1_n_n 64 rfl rfl).symm k) = ix2 p k :=
    funext fun a => Fin.ext (by
      match a with
      | ⟨0, _⟩ => exact lhs_coord0 _ _
      | ⟨1, _⟩ => exact (lhs_coord1 _ _).trans hk)
  have er : dot_S2048x64_S64x256_S2048x256_1_0_0_1_n_n.rhsIdx (ix2 p q)
      ((contrEquiv1 dot_S2048x64_S64x256_S2048x256_1_0_0_1_n_n 64 rfl rfl).symm k) = ix2 k q :=
    funext fun a => Fin.ext (by
      match a with
      | ⟨0, _⟩ => exact (rhs_coord0 _ _).trans hk
      | ⟨1, _⟩ => exact rhs_coord1 _ _)
  rw [el, er]
  rfl

/-- The row of column sums repeated down the rows, at (p, q): its entry q. -/
theorem musq_apply (v2 : FVec Ideal S1x256 .f32) (p : Fin 2048) (q : Fin 256) :
    broadcastTo S2048x256 (shapeCast S1x256 v2 shapeCasts_S1x256_S1x256) broadcasts_S1x256_S2048x256 (ix2 p q)
      = v2 (ix2 (0 : Fin 1) q) := by
  rw [shapeCast_self]
  exact broadcastTo_1b_ab_apply v2 broadcasts_S1x256_S2048x256 p q

/-- WHAT A SLICE STORES, at (p, q): the entry of row p of the slice, column q of mu's block and entry q of the column sums. -/
theorem pay_apply (v0 : FVec Ideal S64x256 .bf16) (v2 : FVec Ideal S1x256 .f32) (xs : FVec Ideal S2048x64 .f32)
    (p : Fin 2048) (q : Fin 256) :
    k0_pay4 (F := Ideal) v0 v2 xs (ix2 p q)
      = entry (fun k : Fin 64 => xs (ix2 p k)) (fun k : Fin 64 => v0 (ix2 k q)) (v2 (ix2 (0 : Fin 1) q)) := by
  unfold k0_pay4 k0_pay2 k0_pay3 entry
  exact congrArg Ideal.exp (congrArg (Ideal.ofBits .f32 0xBF000000#32 * ·)
    (congrArg₂ (· + ·)
      (congrArg₂ (· - ·) (rowsq_apply xs p q) (congrArg (Ideal.ofBits .f32 0x40000000#32 * ·) (cross_apply v0 xs p q)))
      (musq_apply v2 p q)))

/-- The second, third and fourth slices' stored values are the same operations as the first's, cut differently into
    named pieces by the printed program. -/
theorem pay_second (v0 : FVec Ideal S64x256 .bf16) (v2 : FVec Ideal S1x256 .f32) (xs : FVec Ideal S2048x64 .f32) :
    k0_pay6 (F := Ideal) (k0_pay5 v0 v2 xs) (FloatOps.ofBits .f32 0xBF000000#32) = k0_pay4 v0 v2 xs := rfl

theorem pay_third (v0 : FVec Ideal S64x256 .bf16) (v2 : FVec Ideal S1x256 .f32) (xs : FVec Ideal S2048x64 .f32) :
    k0_pay7 (F := Ideal) (k0_pay2 v0) (k0_pay3 v2) xs = k0_pay4 v0 v2 xs := rfl

theorem pay_fourth (v0 : FVec Ideal S64x256 .bf16) (v2 : FVec Ideal S1x256 .f32) (xs : FVec Ideal S2048x64 .f32) :
    k0_pay1 (F := Ideal) (k0_pay8 (k0_pay2 v0) (k0_pay3 v2) xs) = k0_pay4 v0 v2 xs := rfl

end Cert.KernelIdeal.Slice

end
-- ==== Proof.RbfBlock.lean ====
/-
  What the kernel's body leaves in the output's staging buffer at one grid point, as one function of the three input blocks.

  The body's four stores tile the 8192 x 256 output block by row ranges [0, 2048), [2048, 4096), [4096, 6144), [6144, 8192);
  the store of range j holds the slice computation of rows [2048 j, 2048 j + 2048) of x's block. So entry (r, q) of the output
  block is the entry of row r of x's block, column q of mu's block and entry q of the row of column sums, whichever slice r is in.
-/
import proofs.«141782_j75299366633836_2_alg».proof.Proof.Gen.KernelIdeal.Frame
import proofs.«141782_j75299366633836_2_alg».proof.Proof.RbfSlice
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx Cert.Rbf Cert.KernelIdeal.Slice

/-- Entry (r, q) of the output block from the three input blocks. -/
def blockVal (x0 : Vec Ideal S8192x64 .f32) (x1 : Vec Ideal S64x256 .bf16) (x2 : Vec Ideal S1x256 .f32) :
    Vec Ideal S8192x256 .f32 :=
  fun y => entry (fun k : Fin 64 => x0 (ix2 (y 0) k)) (fun k : Fin 64 => x1 (ix2 k (y 1))) (x2 (ix2 (0 : Fin 1) (y 1)))

theorem hz : (![0, 0] : Fin 2 → Nat) = fun _ => 0 := funext fun a => by fin_cases a <;> rfl

/-- Equal rows, columns and column sums give equal entries. -/
theorem entry_congr {K : ℕ} {r r' c c' : Fin K → EReal} {s s' : EReal} (h1 : r = r') (h2 : c = c') (h3 : s = s') :
    entry r c s = entry r' c' s' := by subst h1 h2 h3; rfl

/-- A slice store's value at local index (p, q), when the slice is the rows from `o` on of x's block: the output block's entry
    under the store's rectangle, at (o + p, q). -/
theorem piece_at (x0 : Vec Ideal S8192x64 .f32) (x1 : FVec Ideal S64x256 .bf16) (x2 : FVec Ideal S1x256 .f32)
    (o : Nat) (inbL : ∀ a, (![o, 0] : Fin 2 → Nat) a + S2048x64.size a ≤ S8192x64.size a)
    (inbS : ∀ a, (![o, 0] : Fin 2 → Nat) a + S2048x256.size a ≤ S8192x256.size a) (p : Fin 2048) (q : Fin 256) :
    k0_pay4 (F := Ideal) x1 x2 (View.ld x0 (Rect.unit (s := S8192x64) ![o, 0] S2048x64.size inbL)) (ix2 p q)
      = blockVal x0 x1 x2 ((Rect.unit (s := S8192x256) ![o, 0] S2048x256.size inbS).emb (ix2 p q)) := by
  refine (pay_apply x1 x2 _ p q).trans ?_
  unfold blockVal
  have e1 : (((Rect.unit (s := S8192x256) ![o, 0] S2048x256.size inbS).emb (ix2 p q)) 1) = q :=
    Fin.ext (by show 0 + 1 * q.val = q.val; omega)
  refine entry_congr (funext fun k => ?_) (funext fun k => ?_) ?_
  · exact congrArg x0 (funext fun a => Fin.ext (by
      match a with
      | ⟨0, _⟩ => rfl
      | ⟨1, _⟩ => show 0 + 1 * k.val = k.val; omega))
  · exact congrArg (fun u => x1 (ix2 k u)) e1.symm
  · exact congrArg (fun u => x2 (ix2 (0 : Fin 1) u)) e1.symm

theorem piece_apply (x0 : Vec Ideal S8192x64 .f32) (x1 : FVec Ideal S64x256 .bf16) (x2 : FVec Ideal S1x256 .f32)
    (o : Nat) (inbL : ∀ a, (![o, 0] : Fin 2 → Nat) a + S2048x64.size a ≤ S8192x64.size a)
    (inbS : ∀ a, (![o, 0] : Fin 2 → Nat) a + S2048x256.size a ≤ S8192x256.size a)
    (x : (⟨2, ![2048, 256]⟩ : Shape).Idx) :
    k0_pay4 (F := Ideal) x1 x2 (View.ld x0 (Rect.unit (s := S8192x64) ![o, 0] S2048x64.size inbL)) x
      = blockVal x0 x1 x2 ((Rect.unit (s := S8192x256) ![o, 0] S2048x256.size inbS).emb x) := by
  obtain ⟨p, q, rfl⟩ : ∃ (p : Fin 2048) (q : Fin 256), x = ix2 p q := ⟨x 0, x 1, eq_ix2 x⟩
  exact piece_at x0 x1 x2 o inbL inbS p q

/-- WHAT THE BODY LEAVES in the output's staging buffer, whatever staging buffers it runs on: `blockVal` of the three input
    blocks. Its four stores tile the block, and each holds `blockVal` under its rectangle. -/
theorem out_eq (c : Dev nD) (i : grid0.Coords) (arg1 : Memref sig .tc .vmem S8192x64 .f32) (harg1 : arg1.IsWhole)
    (arg2 : Memref sig .tc .vmem S64x256 .bf16) (harg2 : arg2.IsWhole) (arg3 : Memref sig .tc .vmem S1x256 .f32) (harg3 : arg3.IsWhole)
    (arg4 : Memref sig .tc .vmem S8192x256 .f32) (harg4 : arg4.IsWhole)
    (x0 : Vec Ideal S8192x64 .f32) (x1 : Vec Ideal S64x256 .bf16) (x2 : Vec Ideal S1x256 .f32) :
    out0_A_3 (F := Ideal) c i arg1 harg1 arg2 harg2 arg3 harg3 arg4 harg4 x0 x1 x2 = blockVal x0 x1 x2 := by
  unfold out0_A_3
  rw [View.read_writes_eq_canon _ _ _ (cover0_A_3 c i arg1 harg1 arg2 harg2 arg3 harg3 arg4 harg4 x0 x1 x2)]
  funext y
  refine View.canon_apply_of_pieces (blockVal x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S64x256) hz, View.ld_unit_zero (S := S1x256) hz, pay_second, pay_third, pay_fourth]
  intro pc hpc
  simp only [List.mem_cons, List.not_mem_nil, or_false] at hpc
  rcases hpc with rfl | rfl | rfl | rfl
  · exact fun x => piece_apply x0 x1 x2 6144 (by decide) (by decide) x
  · exact fun x => piece_apply x0 x1 x2 4096 (by decide) (by decide) x
  · exact fun x => piece_apply x0 x1 x2 2048 (by decide) (by decide) x
  · exact fun x => piece_apply x0 x1 x2 0 (by decide) (by decide) x

end Cert.KernelIdeal.Block

end
-- ==== Proof.RbfHost.lean ====
/-
  What the region finds in the two arrays the host computes from mu before the kernel is launched.

  Before the launch the host rounds mu to a shorter format (over the extended reals: mu itself) and sums the squares
  down each of mu's 256 columns into one row. The kernel's second and third windows stage these two arrays whole.
  Read at an index: the first is mu at that index, the second, at column u, is the sum of the squares down column u.
-/
import proofs.«141782_j75299366633836_2_alg».proof.Proof.Gen.KernelIdeal.Frame.Runs
import proofs.«141782_j75299366633836_2_alg».proof.Proof.RbfSpec
import Idealize.ShloMosaic.Lib.StableHlo.Run
import Idealize.ShloMosaic.PureOps.Ideal.Laws
import Idealize.ShloMosaic.Lib.ValueIdx
import Idealize.ShloMosaic.Lib.Pipeline.Value

noncomputable section

open scoped BigOperators

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.Rbf

variable (m : (ℓ : Loc nD τ sig) → Buf (Elt Ideal) ℓ)

/-- The host's sum down axis 0 of a 64 x 256 array, from zero, at column u: the sum of the 64 entries of column u. -/
theorem colsum_apply (y : FVec Ideal S64x256 .f32) (u : Fin 256) :
    Host.reduceAdd (F := Ideal) y (constant (F := Ideal) S_ .f32 0x00000000#32) reducesTo_S64x256_S256_d0 h_S_ (ix1 u)
      = ∑ k : Fin 64, y (ix2 k u) := by
  simp only [Host.reduceAdd, Ideal.hostReduceAdd_def]
  rw [Ideal.hostReduceAdd_single reducesTo_S64x256_S256_d0 (by decide)]
  rw [show (constant (F := Ideal) S_ .f32 0x00000000#32) (Shape.Idx.first h_S_) = 0 from Ideal.ofBits_zero_f32, zero_add]
  refine Finset.sum_congr rfl fun k _ => ?_
  exact congrArg y (funext fun a => Fin.ext (by match a with | ⟨0, _⟩ => rfl | ⟨1, _⟩ => rfl))

/-- The row of column sums of squares, at its one row and column u. -/
theorem sqrow_apply (mu : FVec Ideal S64x256 .f32) (u : Fin 256) :
    broadcastInDim S1x256 ![1] bcast_S256_S1x256_1
        (Host.reduceAdd (F := Ideal) (mulf mu mu) (constant (F := Ideal) S_ .f32 0x00000000#32) reducesTo_S64x256_S256_d0 h_S_)
        (ix2 (0 : Fin 1) u)
      = colSq mu u := by
  refine (broadcastInDim_apply _ bcast_S256_S1x256_1 _ (ix2 (0 : Fin 1) u) (ix1 u) (fun a => match a with
    | ⟨0, _⟩ => by show u.val = if (256 : Nat) = 1 then 0 else u.val; rw [if_neg (by decide)])).trans ?_
  exact colsum_apply (mulf mu mu) u

/-- The array the second window stages: mu rounded to the shorter format. -/
theorem V_rounded (c : Dev nD) :
    (V m c main_v0 : S64x256.Idx → Elt Ideal .bf16)
      = (truncf (F := Ideal) (s := S64x256) (φ := .f32) .bf16 (m ((c : Thread nD τ).loc main_arg1)) bitsLt_bf16_f32 :
          S64x256.Idx → Elt Ideal .bf16) := by
  dsimp only [Gen.V, Gen.hostOps0]
  after_results
  try rfl

/-- The array the third window stages: the row of mu's column sums of squares. -/
theorem V_sqrow (c : Dev nD) :
    (V m c main_v3 : S1x256.Idx → Elt Ideal .f32)
      = broadcastInDim S1x256 ![1] bcast_S256_S1x256_1
          (Host.reduceAdd (F := Ideal) (mulf (F := Ideal) (s := S64x256) (φ := .f32) (m ((c : Thread nD τ).loc main_arg1)) (m ((c : Thread nD τ).loc main_arg1)))
            (constant (F := Ideal) S_ .f32 0x00000000#32) reducesTo_S64x256_S256_d0 h_S_) := by
  dsimp only [Gen.V, Gen.hostOps0]
  after_results
  try rfl

/-- Read at an index: the rounded array is mu, -/
theorem V_rounded_apply (c : Dev nD) (k : Fin 64) (u : Fin 256) :
    V m c main_v0 (ix2 k u) = m ((c : Thread nD τ).loc main_arg1) (ix2 k u) := by
  rw [V_rounded]
  rfl

/-- and the row of sums at column u is the sum of squares down column u of mu. -/
theorem V_sqrow_apply (c : Dev nD) (u : Fin 256) :
    V m c main_v3 (ix2 (0 : Fin 1) u) = colSq (m ((c : Thread nD τ).loc main_arg1)) u := by
  rw [V_sqrow]
  exact sqrow_apply _ u

end Cert.KernelIdeal.HostPrefix

end
-- ==== Proof.RbfArray.lean ====
/-
  From the blocks to the whole result array.

  The grid has eight points; point t reads rows [8192 t, 8192 t + 8192) of x, all of mu's two derived arrays, and writes back
  rows [8192 t, 8192 t + 8192) of the result. What point t writes back is the radial-basis-function array read through
  its block: entry (r, q) of the block is the entry of row 8192 t + r of x and column q of mu. The eight blocks cover the
  result array (row i is in block i / 8192), so after the run the array is the radial-basis-function array.
-/
import proofs.«141782_j75299366633836_2_alg».proof.Proof.Gen.KernelIdeal.Value
import proofs.«141782_j75299366633836_2_alg».proof.Proof.RbfBlock
import proofs.«141782_j75299366633836_2_alg».proof.Proof.RbfHost

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.Rbf Cert.KernelIdeal.Block Cert.KernelIdeal.HostPrefix

variable (m : (ℓ : Loc nD τ sig) → Buf (Elt Ideal) ℓ) (ρ : Dev nD → PrngReg)

/-- The printed index maps, decided over the eight points: x's window moves down the rows with the output's, the two
    windows on mu's derived arrays stay at block (0, 0), and the output's block row is at most 7. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block row of the result is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- x's block at point t, at (r, k): x at row (block row) * 8192 + r. -/
theorem read_x (c : Dev nD) (t : Fin cfg0.N) (r : Fin 8192) (k : Fin 64) (b : Fin 65536)
    (hb : b.val = win0_3.index t (0 : Fin 2) * 8192 + r.val) :
    iblk m c 0 t (ix2 r k) = m ((c : Thread nD τ).loc main_arg0) (ix2 b k) := by
  obtain ⟨e0, e1, -, -, -, -, -, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 8192 + 1 * r.val = b.val; omega
  | ⟨1, _⟩ => show win0_0.index t (1 : Fin 2) * 64 + 1 * k.val = k.val; omega

/-- The block of mu's rounded copy at point t is the whole of it: mu. -/
theorem read_mu (c : Dev nD) (t : Fin cfg0.N) (k : Fin 64) (u : Fin 256) :
    iblk m c 1 t (ix2 k u) = m ((c : Thread nD τ).loc main_arg1) (ix2 k u) := by
  obtain ⟨-, -, e2, e3, -, -, -, -⟩ := idx_facts t
  show V m c main_v0 (((cfg0.win 1).blk t).view.emb (ix2 k u)) = _
  have e : ((cfg0.win 1).blk t).view.emb (ix2 k u) = ix2 k u := funext fun a => Fin.ext (by
    match a with
    | ⟨0, _⟩ => show win0_1.index t (0 : Fin 2) * 64 + 1 * k.val = k.val; omega
    | ⟨1, _⟩ => show win0_1.index t (1 : Fin 2) * 256 + 1 * u.val = u.val; omega)
  rw [e]
  exact V_rounded_apply m c k u

/-- The block of the row of column sums at point t is the whole row. -/
theorem read_sq (c : Dev nD) (t : Fin cfg0.N) (u : Fin 256) :
    iblk m c 2 t (ix2 (0 : Fin 1) u) = colSq (m ((c : Thread nD τ).loc main_arg1)) u := by
  obtain ⟨-, -, -, -, e4, e5, -, -⟩ := idx_facts t
  show V m c main_v3 (((cfg0.win 2).blk t).view.emb (ix2 (0 : Fin 1) u)) = _
  have e : ((cfg0.win 2).blk t).view.emb (ix2 (0 : Fin 1) u) = ix2 (0 : Fin 1) u := funext fun a => Fin.ext (by
    match a with
    | ⟨0, _⟩ => show win0_2.index t (0 : Fin 2) * 1 + 1 * 0 = 0; omega
    | ⟨1, _⟩ => show win0_2.index t (1 : Fin 2) * 256 + 1 * u.val = u.val; omega)
  rw [e]
  exact V_sqrow_apply m c u

/-- An output block's entry is the array's entry, when the block's inputs are the arrays' entries: stated over plain
    blocks and indices, with the coordinates' relation as hypotheses. -/
theorem blockVal_eq_G (x : (⟨2, ![65536, 64]⟩ : Shape).Idx → EReal) (mu : (⟨2, ![64, 256]⟩ : Shape).Idx → EReal)
    (x0 : Vec Ideal S8192x64 .f32) (x1 : Vec Ideal S64x256 .bf16) (x2 : Vec Ideal S1x256 .f32) (o : Nat)
    (y : S8192x256.Idx) (i : S65536x256.Idx)
    (hi0 : (i 0).val = o * 8192 + (y 0).val) (hi1 : (i 1).val = (y 1).val)
    (h0 : ∀ (r : Fin 8192) (k : Fin 64) (b : Fin 65536), b.val = o * 8192 + r.val → x0 (ix2 r k) = x (ix2 b k))
    (h1 : ∀ (k : Fin 64) (u : Fin 256), x1 (ix2 k u) = mu (ix2 k u))
    (h2 : ∀ u : Fin 256, x2 (ix2 (0 : Fin 1) u) = colSq mu u) :
    blockVal x0 x1 x2 y = G x mu i := by
  have e1 : (y 1 : Fin 256) = i 1 := Fin.ext hi1.symm
  unfold blockVal G rbfAt
  refine entry_congr (funext fun k => h0 (y 0) k (i 0) hi0) (funext fun k => ?_) ?_
  · exact (h1 k (y 1)).trans (congrArg (fun u => mu (ix2 k u)) e1)
  · exact (h2 (y 1)).trans (congrArg (colSq mu) e1)

/-- WHAT POINT t WRITES BACK is block t of the radial-basis-function array of the two arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1))) := by
  rw [Cert.KernelIdeal.Value.flushed3_A, out_eq]
  obtain ⟨-, -, -, -, -, -, e6, -⟩ := idx_facts t
  funext j
  refine blockVal_eq_G (m ((c : Thread nD τ).loc main_arg0)) (m ((c : Thread nD τ).loc main_arg1))
    (iblk m c 0 t) (iblk m c 1 t) (iblk m c 2 t) (win0_3.index t (0 : Fin 2)) j (((cfg0.win 3).blk t).view.emb j) ?_ ?_
    (fun r k b hb => read_x m c t r k b hb) (fun k u => read_mu m c t k u) (fun u => read_sq m c t u)
  · show win0_3.index t (0 : Fin 2) * 8192 + 1 * (j 0).val = win0_3.index t (0 : Fin 2) * 8192 + (j 0).val
    omega
  · show win0_3.index t (1 : Fin 2) * 256 + 1 * (j 1).val = (j 1).val
    omega

/-- An index of the result is in point t's block iff each coordinate is in the block's range on its axis. -/
theorem mem_blk (t : Fin cfg0.N) (i : S65536x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v4).slice (win0_3.rect t)).set ↔ _
  rw [View.set_slice_whole, Rect.mem_set_unit]
  exact Iff.rfl

/-- The eight blocks cover the result: row i is in block i / 8192. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 256 ≤ (i 1).val ∧ (i 1).val < win0_3.index t (1 : Fin 2) * 256 + 256
    omega

/-- THE RESULT ARRAY after the run is the radial-basis-function array of the two arguments. -/
theorem final (c : Dev nD) :
    (dats m 0 c).arrAt 3 cfg0.N = G (m ((c : Thread nD τ).loc main_arg0)) (m ((c : Thread nD τ).loc main_arg1)) :=
  (dats m 0 c).arrAt_eq_of_cover 3 (G (m ((c : Thread nD τ).loc main_arg0)) (m ((c : Thread nD τ).loc main_arg1)))
    (fun t _ => flushed_eq m c t) cover

/-- The kernel's run, read: the result at the radial-basis-function array of the arguments, the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Array

end
-- ==== Proof.RbfRef.lean ====
/-
  The reference's result is the radial-basis-function array.

  Read one operation at a time, entry (b, u) of the reference's result is exp of -1/2 times
  ((0 + the sum of squares of row b of x) - 2 * (the product of row b of x with column u of mu)) + (0 + the sum of squares down
  column u of mu): the specification's entry once the two zeros the host sums start from are dropped.
-/
import proofs.«141782_j75299366633836_2_alg».proof.Proof.Gen.ReferenceIdeal.Read
import proofs.«141782_j75299366633836_2_alg».proof.Proof.RbfSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.Rbf

/-- The composed index functions of the generated read lemmas, at (b, u): row b of x, column u of mu. -/
theorem row_idx (b : Fin 65536) (u : Fin 256) (k : Fin 64) :
    idx_main_v1 (idx_main_v2 (idx_main_v9 (ix2 b u))) k = ix2 b k :=
  funext fun a => Fin.ext (by match a with | ⟨0, _⟩ => rfl | ⟨1, _⟩ => rfl)
theorem col_idx (b : Fin 65536) (u : Fin 256) (k : Fin 64) :
    idx_main_v4 (idx_main_v5 (idx_main_v11 (ix2 b u))) k = ix2 k u :=
  funext fun a => Fin.ext (by match a with | ⟨0, _⟩ => rfl | ⟨1, _⟩ => rfl)
theorem lhs_idx (b : Fin 65536) (u : Fin 256) (k : Fin 64) : lidx_main_v6 (ix2 b u) k = ix2 b k :=
  funext fun a => Fin.ext (by match a with | ⟨0, _⟩ => rfl | ⟨1, _⟩ => rfl)
theorem rhs_idx (b : Fin 65536) (u : Fin 256) (k : Fin 64) : ridx_main_v6 (ix2 b u) k = ix2 k u :=
  funext fun a => Fin.ext (by match a with | ⟨0, _⟩ => rfl | ⟨1, _⟩ => rfl)

/-- THE REFERENCE IS THE SPECIFICATION, index by index. -/
theorem ref_eq (x0 : (⟨S65536x64, .f32⟩ : BufTy).Contents (Elt Ideal)) (x1 : (⟨S64x256, .f32⟩ : BufTy).Contents (Elt Ideal)) :
    val_main_v15 (F := Ideal) x0 x1 = G x0 x1 := by
  funext i
  obtain ⟨b, u, rfl⟩ : ∃ (b : Fin 65536) (u : Fin 256), i = ix2 b u := ⟨i 0, i 1, eq_ix2 i⟩
  rw [G_ix2, val_main_v15_apply, val_main_v14_apply, val_main_v13_apply, val_main_cst_2_apply, val_main_v12_apply,
    val_main_v10_apply, val_main_v9_apply, val_main_v2_apply, val_main_v1_apply, val_main_v8_apply, val_main_v7_apply,
    val_main_cst_1_apply, val_main_v6_apply, val_main_v11_apply, val_main_v5_apply, val_main_v4_apply]
  simp only [val_main_cst_apply, val_main_cst_0_apply, val_main_v0_apply, val_main_v3_apply, row_idx, col_idx, lhs_idx, rhs_idx,
    Ideal.hostUnary_exp_def, Ideal.mulf_def, Ideal.subf_def, Ideal.addf_def, Ideal.ofBits_def, Ideal.ofBits_zero_f32, zero_add]
  rfl

end Cert.ReferenceIdeal.RefValue

end
-- ==== Proof.lean ====
/-
  A radial-basis-function layer, a tiled kernel against its plain array program: both compute, for x of 65536 rows and 64
  columns and mu of 64 rows and 256 columns,

      out[b, u] = exp( -1/2 * ( ( sum_d x[b,d]^2  -  2 * sum_d x[b,d] * mu[d,u] )  +  sum_d mu[d,u]^2 ) ).

  The kernel walks eight blocks of 8192 rows of x; inside a block it takes four slices of 2048 rows, and for each slice sums the
  squares along the rows, multiplies the slice with mu on the matrix unit (from a zero accumulator; the operands are first
  rounded to a shorter format, which over the extended reals changes nothing), and combines these with the sums of squares
  down mu's columns, which the host computed before the launch. The reference computes the same three sums over the whole
  arrays. Over the extended reals the two are the SAME tree of operations at every index — the same two scalar words (2 and
  -1/2), sums that start from zero, no re-association — so no law of arithmetic joins them and the finiteness of the
  inputs is never used: what the proof does is read each side at an index.

  The steps, one module each: the array as one function of the arguments (RbfSpec); one slice of the body read at an index
  (RbfSlice); the four slices tile the output block (RbfBlock); what the host's operations before the launch leave for the
  kernel (RbfHost); the eight blocks cover the result array (RbfArray); the reference read operation by operation is the
  same function (RbfRef). The runs of the two idealized programs and the three frames are the generated modules'.
  The idealization rewrote nothing, so the kernel's idealization is the kernel's own text read over the extended reals.
-/
import proofs.«141782_j75299366633836_2_alg».proof.Defs
import proofs.«141782_j75299366633836_2_alg».proof.Proof.Gen.Kernel
import proofs.«141782_j75299366633836_2_alg».proof.Proof.Gen.Kernel.Skeleton
import proofs.«141782_j75299366633836_2_alg».proof.Proof.Gen.Kernel.Launch
import proofs.«141782_j75299366633836_2_alg».proof.Proof.Gen.Kernel.Points
import proofs.«141782_j75299366633836_2_alg».proof.Proof.Gen.Kernel.Frame
import proofs.«141782_j75299366633836_2_alg».proof.Proof.Gen.KernelIdeal
import proofs.«141782_j75299366633836_2_alg».proof.Proof.Gen.KernelIdeal.Skeleton
import proofs.«141782_j75299366633836_2_alg».proof.Proof.Gen.KernelIdeal.Launch
import proofs.«141782_j75299366633836_2_alg».proof.Proof.Gen.KernelIdeal.Points
import proofs.«141782_j75299366633836_2_alg».proof.Proof.Gen.KernelIdeal.Frame
import proofs.«141782_j75299366633836_2_alg».proof.Proof.Gen.ReferenceIdeal
import proofs.«141782_j75299366633836_2_alg».proof.Proof.Gen.Pre_finite_inputs
import proofs.«141782_j75299366633836_2_alg».proof.Proof.Gen.KernelIdeal.Value
import proofs.«141782_j75299366633836_2_alg».proof.Proof.Gen.ReferenceIdeal.Run
import proofs.«141782_j75299366633836_2_alg».proof.Proof.Gen.ReferenceIdeal.Read
import proofs.«141782_j75299366633836_2_alg».proof.Proof.RbfArray
import proofs.«141782_j75299366633836_2_alg».proof.Proof.RbfRef
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the radial-basis-function array of its arguments, and the
    reference's result at the same function of arguments that agree. -/
theorem algebraic : Cert.algebraic_KernelIdeal_ReferenceIdeal := by
  intro m ρ m' ρ' _ hagree
  refine ⟨fun c => Cert.Rbf.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
